-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S16384x1 : Shape := ⟨2, ![16384, 1]⟩
abbrev S2048x2048 : Shape := ⟨2, ![2048, 2048]⟩
abbrev S2048 : Shape := ⟨1, ![2048]⟩
abbrev S2048x1024 : Shape := ⟨2, ![2048, 1024]⟩
abbrev S1024 : Shape := ⟨1, ![1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S16384x1 : S_.BroadcastsInDim S16384x1 (![] : Fin 0 → Fin S16384x1.rank)
  reducesTo_S16384x1_S_d0_1 : S16384x1.ReducesTo [0, 1] S_
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_
  bcast_S_S2048x1024 : S_.BroadcastsInDim S2048x1024 (![] : Fin 0 → Fin S2048x1024.rank)
  reducesTo_S2048x1024_S_d0_1 : S2048x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S2048 .f32) (main_arg5 : FVec F S2048x1024 .f32) (main_arg6 : FVec F S1024 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S2048x1024 .f32 := Host.absf main_arg5
  let main_cst_8 : FVec F S_ .f32 := constant S_ .f32 0x7F800000#32
  let main_v25 : FVec F S2048x1024 .f32 := broadcastInDim S2048x1024 ![] bcast_S_S2048x1024 main_cst_8
  let main_v26 : IVec S2048x1024 1 := cmpf .olt main_v24 main_v25
  let main_c_9 : IVec S_ 1 := constantI S_ 1 1#1
  let main_v27 : IVec S_ 1 := (fun x v => Host.reduce IntOp.andi x v reducesTo_S2048x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  main_v33

def fn {F : FTy → Type} [FloatOps F] (main_arg0 : FVec F S16384x1024 .f32) (main_arg1 : FVec F S16384x1 .f32) (main_arg2 : FVec F S16384x1024 .f32) (main_arg3 : FVec F S2048x2048 .f32) (main_arg4 : FVec F S2048 .f32) (main_arg5 : FVec F S2048x1024 .f32) (main_arg6 : FVec F S1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x1 .f32 := Host.absf main_arg1
  let main_cst_0 : FVec F S_ .f32 := constant S_ .f32 0x7F800000#32
  let main_v5 : FVec F S16384x1 .f32 := broadcastInDim S16384x1 ![] bcast_S_S16384x1 main_cst_0
  let main_v6 : IVec S16384x1 1 := cmpf .olt main_v4 main_v5
  let main_c_1 : IVec S_ 1 := constantI S_ 1 1#1
  let main_v7 : IVec S_ 1 := (fun x v => Host.reduce IntOp.andi x v reducesTo_S16384x1_S_d0_1 h_S_) main_v6 main_c_1
  let main_v8 : IVec S_ 1 := andi main_v3 main_v7
  let main_v9 : FVec F S16384x1024 .f32 := Host.absf main_arg2
  let main_cst_2 : FVec F S_ .f32 := constant S_ .f32 0x7F800000#32
  let main_v10 : FVec F S16384x1024 .f32 := broadcastInDim S16384x1024 ![] bcast_S_S16384x1024 main_cst_2
  let main_v11 : IVec S16384x1024 1 := cmpf .olt main_v9 main_v10
  let main_c_3 : IVec S_ 1 := constantI S_ 1 1#1
  let main_v12 : IVec S_ 1 := (fun x v => Host.reduce IntOp.andi x v reducesTo_S16384x1024_S_d0_1 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg4 main_arg5 main_arg6 main_v13 main_v16
-- ==== Kernel.lean ====
abbrev S16384x1024 : Shape := ⟨2, ![16384, 1024]⟩
abbrev S16384x1 : Shape := ⟨2, ![16384, 1]⟩
abbrev S2048x2048 : Shape := ⟨2, ![2048, 2048]⟩
abbrev S2048 : Shape := ⟨1, ![2048]⟩
abbrev S2048x1024 : Shape := ⟨2, ![2048, 1024]⟩
abbrev S1024 : Shape := ⟨1, ![1024]⟩
abbrev S1024x2048 : Shape := ⟨2, ![1024, 2048]⟩
abbrev S1024x1024 : Shape := ⟨2, ![1024, 1024]⟩
abbrev S1x2048 : Shape := ⟨2, ![1, 2048]⟩
abbrev S1x1024 : Shape := ⟨2, ![1, 1024]⟩
abbrev S512x1024 : Shape := ⟨2, ![512, 1024]⟩
abbrev S512x1 : Shape := ⟨2, ![512, 1]⟩
abbrev S512x2048 : Shape := ⟨2, ![512, 2048]⟩

abbrev nBuf : Space → Nat
  | .hbm => 18
  | .vmem => 14
  | .smem => 0
  | _ => 0

abbrev bufTy : (tb : Table) → Fin (tcTables nBuf tb) → BufTy
  | .hbm, ⟨0, _⟩ => ⟨S16384x1024, .f32⟩
  | .hbm, ⟨1, _⟩ => ⟨S16384x1, .f32⟩
  | .hbm, ⟨2, _⟩ => ⟨S16384x1024, .f32⟩
  | .hbm, ⟨3, _⟩ => ⟨S2048x2048, .f32⟩
  | .hbm, ⟨4, _⟩ => ⟨S2048, .f32⟩
  | .hbm, ⟨5, _⟩ => ⟨S2048x1024, .f32⟩
  | .hbm, ⟨6, _⟩ => ⟨S1024, .f32⟩
  | .hbm, ⟨7, _⟩ => ⟨S1024x2048, .f32⟩
  | .hbm, ⟨8, _⟩ => ⟨S1024x2048, .bf16⟩
  | .hbm, ⟨9, _⟩ => ⟨S1024x2048, .f32⟩
  | .hbm, ⟨10, _⟩ => ⟨S1024x2048, .bf16⟩
  | .hbm, ⟨11, _⟩ => ⟨S1024x1024, .f32⟩
  | .hbm, ⟨12, _⟩ => ⟨S1024x1024, .bf16⟩
  | .hbm, ⟨13, _⟩ => ⟨S1024x1024, .f32⟩
  | .hbm, ⟨14, _⟩ => ⟨S1024x1024, .bf16⟩
  | .hbm, ⟨15, _⟩ => ⟨S1x2048, .f32⟩
  | .hbm, ⟨16, _⟩ => ⟨S1x1024, .f32⟩
  | .hbm, ⟨17, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1, .f32⟩
  | .local _ .vmem, ⟨5, _⟩ => ⟨S512x1, .f32⟩
  | .local _ .vmem, ⟨6, _⟩ => ⟨S1024x2048, .bf16⟩
  | .local _ .vmem, ⟨7, _⟩ => ⟨S1024x2048, .bf16⟩
  | .local _ .vmem, ⟨8, _⟩ => ⟨S1x2048, .f32⟩
  | .local _ .vmem, ⟨9, _⟩ => ⟨S1024x1024, .bf16⟩
  | .local _ .vmem, ⟨10, _⟩ => ⟨S1024x1024, .bf16⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  slices_S2048x2048_S1024x2048_0_0 : S2048x2048.Slices ![0, 0] S1024x2048
  bitsLt_bf16_f32 : FTy.bits .bf16 < FTy.bits .f32
  slices_S2048x2048_S1024x2048_1024_0 : S2048x2048.Slices ![1024, 0] S1024x2048
  slices_S2048x1024_S1024x1024_0_0 : S2048x1024.Slices ![0, 0] S1024x1024
  slices_S2048x1024_S1024x1024_1024_0 : S2048x1024.Slices ![1024, 0] S1024x1024
  shapeCasts_S2048_S1x2048 : S2048.ShapeCasts S1x2048
  shapeCasts_S1024_S1x1024 : S1024.ShapeCasts S1x1024
  inb_S512x1024_S512x1024_0_0 : ∀ a, (![0, 0] : Fin 2 → Nat) a + S512x1024.size a ≤ S512x1024.size a
  h_S512x1024 : 0 < S512x1024.numel
  inb_S512x1_S512x1_0_0 : ∀ a, (![0, 0] : Fin 2 → Nat) a + S512x1.size a ≤ S512x1.size a
  h_S512x1 : 0 < S512x1.numel
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  slices_S512x2048_o0_0_S512x1024 : S512x2048.Slices ![0, 0] S512x1024
  slices_S512x2048_o0_1024_S512x1024 : S512x2048.Slices ![0, 1024] S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  broadcasts_S512x1_S512x1024 : S512x1.Broadcasts S512x1024
  dot_S512x1024_S1024x2048_S512x2048_1_0_0_1_n_n_wf : DotDims.WF S512x1024 S1024x2048 S512x2048 [1] [0] [0] [1] [] []
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S16384x1024.size a
  hwx0_0 : ∀ i : grid0.Coords, EltTy.bits .f32 = 32 ∨ (Rect.block (s := S16384x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S16384x1024.size a
  hwx0_1 : ∀ i : grid0.Coords, EltTy.bits .f32 = 32 ∨ (Rect.block (s := S16384x1024) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S16384x1.size a
  hwx0_2 : ∀ i : grid0.Coords, EltTy.bits .f32 = 32 ∨ (Rect.block (s := S16384x1) S512x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x2048.size a ≤ S1024x2048.size a
  hwx0_3 : ∀ i : grid0.Coords, EltTy.bits .bf16 = 32 ∨ (Rect.block (s := S1024x2048) S1024x2048.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x2048.size a ≤ S1024x2048.size a
  hwx0_4 : ∀ i : grid0.Coords, EltTy.bits .bf16 = 32 ∨ (Rect.block (s := S1024x2048) S1024x2048.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x2048.size a ≤ S1x2048.size a
  hwx0_5 : ∀ i : grid0.Coords, EltTy.bits .f32 = 32 ∨ (Rect.block (s := S1x2048) S1x2048.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x1024.size a ≤ S1024x1024.size a
  hwx0_6 : ∀ i : grid0.Coords, EltTy.bits .bf16 = 32 ∨ (Rect.block (s := S1024x1024) S1024x1024.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x1024.size a ≤ S1024x1024.size a
  hwx0_7 : ∀ i : grid0.Coords, EltTy.bits .bf16 = 32 ∨ (Rect.block (s := S1024x1024) S1024x1024.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1024.size a ≤ S1x1024.size a
  hwx0_8 : ∀ i : grid0.Coords, EltTy.bits .f32 = 32 ∨ (Rect.block (s := S1x1024) S1x1024.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S512x1024.size a ≤ S16384x1024.size a
  hwx0_9 : ∀ i : grid0.Coords, EltTy.bits .f32 = 32 ∨ (Rect.block (s := S16384x1024) S512x1024.size (cc0_transform_9 i) (hinb0_9 i)).WholeWords (EltTy.packing .f32)

variable [Facts₀]

def dot_S512x1024_S1024x2048_S512x2048_1_0_0_1_n_n : DotDims S512x1024 S1024x2048 S512x2048 where
  lhsContracting := [1]
  rhsContracting := [0]
  lhsNonContracting := [0]
  rhsNonContracting := [1]
  lhsBatch := []
  rhsBatch := []
  wf := dot_S512x1024_S1024x2048_S512x2048_1_0_0_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1024x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S1x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1024x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7) S1024x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v9) S1x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v10) S512x1024.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S16384x1 : Shape := ⟨2, ![16384, 1]⟩
abbrev S2048x2048 : Shape := ⟨2, ![2048, 2048]⟩
abbrev S2048 : Shape := ⟨1, ![2048]⟩
abbrev S2048x1024 : Shape := ⟨2, ![2048, 1024]⟩
abbrev S1024 : Shape := ⟨1, ![1024]⟩
abbrev S16384x2048 : Shape := ⟨2, ![16384, 2048]⟩
abbrev S1x2048 : Shape := ⟨2, ![1, 2048]⟩
abbrev S_ : Shape := ⟨0, ![]⟩
abbrev S1x1024 : Shape := ⟨2, ![1, 1024]⟩

abbrev nBuf : Space → Nat
  | .hbm => 40
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1, .f32⟩
  | .hbm, ⟨2, _⟩ => ⟨S16384x1024, .f32⟩
  | .hbm, ⟨3, _⟩ => ⟨S2048x2048, .f32⟩
  | .hbm, ⟨4, _⟩ => ⟨S2048, .f32⟩
  | .hbm, ⟨5, _⟩ => ⟨S2048x1024, .f32⟩
  | .hbm, ⟨6, _⟩ => ⟨S1024, .f32⟩
  | .hbm, ⟨7, _⟩ => ⟨S16384x2048, .f32⟩
  | .hbm, ⟨8, _⟩ => ⟨S16384x2048, .f32⟩
  | .hbm, ⟨9, _⟩ => ⟨S1x2048, .f32⟩
  | .hbm, ⟨10, _⟩ => ⟨S16384x2048, .f32⟩
  | .hbm, ⟨11, _⟩ => ⟨S16384x2048, .f32⟩
  | .hbm, ⟨12, _⟩ => ⟨S16384x2048, .f32⟩
  | .hbm, ⟨13, _⟩ => ⟨S16384x2048, .f32⟩
  | .hbm, ⟨14, _⟩ => ⟨S_, .f32⟩
  | .hbm, ⟨15, _⟩ => ⟨S16384x2048, .f32⟩
  | .hbm, ⟨16, _⟩ => ⟨S16384x2048, .f32⟩
  | .hbm, ⟨17, _⟩ => ⟨S_, .f32⟩
  | .hbm, ⟨18, _⟩ => ⟨S16384x2048, .f32⟩
  | .hbm, ⟨19, _⟩ => ⟨S16384x2048, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S16384x2048, .f32⟩
  | .hbm, ⟨24, _⟩ => ⟨S16384x1024, .f32⟩
  | .hbm, ⟨25, _⟩ => ⟨S1x1024, .f32⟩
  | .hbm, ⟨26, _⟩ => ⟨S16384x1024, .f32⟩
  | .hbm, ⟨27, _⟩ => ⟨S16384x1024, .f32⟩
  | .hbm, ⟨28, _⟩ => ⟨S16384x1024, .f32⟩
  | .hbm, ⟨29, _⟩ => ⟨S_, .f32⟩
  | .hbm, ⟨30, _⟩ => ⟨S16384x1, .f32⟩
  | .hbm, ⟨31, _⟩ => ⟨S16384x1, .f32⟩
  | .hbm, ⟨32, _⟩ => ⟨S16384x1024, .f32⟩
  | .hbm, ⟨33, _⟩ => ⟨S16384x1024, .f32⟩
  | .hbm, ⟨34, _⟩ => ⟨S16384x1024, .f32⟩
  | .hbm, ⟨35, _⟩ => ⟨S_, .f32⟩
  | .hbm, ⟨36, _⟩ => ⟨S16384x1024, .f32⟩
  | .hbm, ⟨37, _⟩ => ⟨S16384x1024, .f32⟩
  | .hbm, ⟨38, _⟩ => ⟨S16384x1024, .f32⟩
  | .hbm, ⟨39, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_1 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]

class Facts₀ : Prop where
  concatenates_S16384x1024_S16384x1024_S16384x2048_d1 : Shape.Concatenates [S16384x1024, S16384x1024] S16384x2048 1
  bcast_S2048_S1x2048_1 : S2048.BroadcastsInDim S1x2048 (![1] : Fin 1 → Fin S1x2048.rank)
  bcast_S1x2048_S16384x2048_0_1 : S1x2048.BroadcastsInDim S16384x2048 (![0, 1] : Fin 2 → Fin S16384x2048.rank)
  bcast_S_S16384x2048 : S_.BroadcastsInDim S16384x2048 (![] : Fin 0 → Fin S16384x2048.rank)
  slices_S16384x2048_S16384x1024_0_0 : S16384x2048.Slices ![0, 0] S16384x1024
  slices_S16384x2048_S16384x1024_0_1024 : S16384x2048.Slices ![0, 1024] S16384x1024
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  bcast_S_S16384x1 : S_.BroadcastsInDim S16384x1 (![] : Fin 0 → Fin S16384x1.rank)
  bcast_S16384x1_S16384x1024_0_1 : S16384x1.BroadcastsInDim S16384x1024 (![0, 1] : Fin 2 → Fin S16384x1024.rank)
  bcast_S_S16384x1024 : S_.BroadcastsInDim S16384x1024 (![] : Fin 0 → Fin S16384x1024.rank)
  dot_S16384x2048_S2048x2048_S16384x2048_1_0_0_1_n_n_wf : DotDims.WF S16384x2048 S2048x2048 S16384x2048 [1] [0] [0] [1] [] []
  dot_S16384x2048_S2048x1024_S16384x1024_1_0_0_1_n_n_wf : DotDims.WF S16384x2048 S2048x1024 S16384x1024 [1] [0] [0] [1] [] []

variable [Facts₀]

def dot_S16384x2048_S2048x2048_S16384x2048_1_0_0_1_n_n : DotDims S16384x2048 S2048x2048 S16384x2048 where
  lhsContracting := [1]
  rhsContracting := [0]
  lhsNonContracting := [0]
  rhsNonContracting := [1]
  lhsBatch := []
  rhsBatch := []
  wf := dot_S16384x2048_S2048x2048_S16384x2048_1_0_0_1_n_n_wf
def dot_S16384x2048_S2048x1024_S16384x1024_1_0_0_1_n_n : DotDims S16384x2048 S2048x1024 S16384x1024 where
  lhsContracting := [1]
  rhsContracting := [0]
  lhsNonContracting := [0]
  rhsNonContracting := [1]
  lhsBatch := []
  rhsBatch := []
  wf := dot_S16384x2048_S2048x1024_S16384x1024_1_0_0_1_n_n_wf

class Facts : Prop extends Facts₀ where

variable [Facts]
-- ==== Proof.LibPlainDot.lean ====
/-
  A plain matrix product read at an index, on the extended reals.

  For the dimension numbers of an M×K by K×N product (contract the left operand's axis 1 with the right operand's
  axis 0, no batch axis), the product at row `r`, column `n` is the sum over the K contraction positions of
  `l (r, k) · r' (k, n)`. The contraction index of the dimension record is a one-coordinate index; it is re-indexed by
  that coordinate, and the operand indices at an output index and a contraction position are read off coordinate by
  coordinate. Stated for a kernel's matrix unit accumulating into the zero splat and for a host `dot_general`.
-/
import Idealize.ShloMosaic.PureOps.Ideal
import Idealize.ShloMosaic.PureOps.Ideal.Laws
import Idealize.ShloMosaic.Lib.ValueIdx

noncomputable section

namespace Cert.LibPlainDot

open Idealize.ShloMosaic Idealize.ShloMosaic.ValueIdx

variable (M K N : Nat)

/-- The contraction shape of a plain product has one axis, -/
theorem contr_rank : (DotDims.plain M K N).contr.rank = 1 := rfl

/-- of extent K. -/
theorem contr_size : (DotDims.plain M K N).contr.size ⟨0, by rw [contr_rank]; exact Nat.one_pos⟩ = K := rfl

/-- The left operand's index at output index `j` and contraction position `k` is (row of `j`, `k`). -/
theorem lhsIdx_eq (j : (⟨2, ![M, N]⟩ : Shape).Idx) (k : Fin K) :
    (DotDims.plain M K N).lhsIdx j ((contrEquiv1 (DotDims.plain M K N) K (contr_rank M K N) (contr_size M K N)).symm k)
      = ix2 (j 0) k := by
  funext a
  apply Fin.ext
  match a with
  | ⟨0, _⟩ => rfl
  | ⟨1, _⟩ =>
    exact ((DotDims.plain M K N).lhsIdx_val_of_single (cl := 1) rfl j _).trans
      (contrEquiv1_symm_val (DotDims.plain M K N) K (contr_rank M K N) (contr_size M K N) k)

/-- The right operand's index at output index `j` and contraction position `k` is (`k`, column of `j`). -/
theorem rhsIdx_eq (j : (⟨2, ![M, N]⟩ : Shape).Idx) (k : Fin K) :
    (DotDims.plain M K N).rhsIdx j ((contrEquiv1 (DotDims.plain M K N) K (contr_rank M K N) (contr_size M K N)).symm k)
      = ix2 k (j 1) := by
  funext a
  apply Fin.ext
  match a with
  | ⟨0, _⟩ =>
    exact ((DotDims.plain M K N).rhsIdx_val_of_single (cr := 0) rfl j _).trans
      (contrEquiv1_symm_val (DotDims.plain M K N) K (contr_rank M K N) (contr_size M K N) k)
  | ⟨1, _⟩ => rfl

/-- The sum over the record's contraction index is the sum over the K positions. -/
theorem sum_contr (l : (⟨2, ![M, K]⟩ : Shape).Idx → EReal) (r : (⟨2, ![K, N]⟩ : Shape).Idx → EReal)
    (j : (⟨2, ![M, N]⟩ : Shape).Idx) :
    ∑ k : (DotDims.plain M K N).contr.Idx, l ((DotDims.plain M K N).lhsIdx j k) * r ((DotDims.plain M K N).rhsIdx j k)
      = ∑ k : Fin K, l (ix2 (j 0) k) * r (ix2 k (j 1)) := by
  rw [← Equiv.sum_comp (contrEquiv1 (DotDims.plain M K N) K (contr_rank M K N) (contr_size M K N)).symm]
  exact Finset.sum_congr rfl fun k _ =>
    congrArg₂ (fun a b => l a * r b) (lhsIdx_eq M K N j k) (rhsIdx_eq M K N j k)

/-- A kernel's matrix unit accumulating into the zero splat, at an index: the plain sum of products. -/
theorem matmul_zero_apply {φ₁ φ₂ : FTy} (prec : Option ContractPrecision)
    (l : FVec Ideal ⟨2, ![M, K]⟩ φ₁) (r : FVec Ideal ⟨2, ![K, N]⟩ φ₂) (j : (⟨2, ![M, N]⟩ : Shape).Idx) :
    FloatOps.matmul (DotDims.plain M K N) prec l r (constant ⟨2, ![M, N]⟩ .f32 0x00000000#32) j
      = ∑ k : Fin K, l (ix2 (j 0) k) * r (ix2 k (j 1)) :=
  (Ideal.matmul_constant_zero_apply (DotDims.plain M K N) prec l r j).trans (sum_contr M K N l r j)

/-- A host `dot_general` at an index: the same sum, whatever the precision and schedule keys. -/
theorem dotGeneral_apply {φ₁ φ₂ : FTy} (prec : Option ContractPrecision) (sched : HostSchedule)
    (l : FVec Ideal ⟨2, ![M, K]⟩ φ₁) (r : FVec Ideal ⟨2, ![K, N]⟩ φ₂) (j : (⟨2, ![M, N]⟩ : Shape).Idx) :
    FloatOps.dotGeneral (DotDims.plain M K N) prec sched l r j
      = ∑ k : Fin K, l (ix2 (j 0) k) * r (ix2 k (j 1)) :=
  (Ideal.dotGeneral_apply (DotDims.plain M K N) prec sched l r j).trans (sum_contr M K N l r j)

end Cert.LibPlainDot

end
-- ==== Proof.GruCell.lean ====
/-
  One batch row of an attention-gated recurrent cell, on the extended reals.

  A row of the cell takes the input row `xr` and the state row `hr` (1024 entries each) and the row's attention score `a`.
  The gate matrix has 2048 rows, the first 1024 meeting the input and the last 1024 the state, and 2048 columns, the
  first 1024 being the reset gate and the last 1024 the update gate; the candidate matrix has the same 2048 rows and
  1024 columns. With `σ` the logistic function,

    gate n  = σ (Σ_k xr k · gx k n + Σ_k hr k · gh k n + gb n)                       (n < 2048)
    cand q  = tanh (Σ_k xr k · cx k q + Σ_k (gate k · hr k) · ch k q + cb q)          (q < 1024; the reset gate is column k)
    u q     = (1 − a) · gate (1024 + q)                                               (the update gate, scaled by attention)
    out q   = u q · hr q + (1 − u q) · cand q.

  Both programs compute exactly this; they differ in how the products with the two matrices are taken. One multiplies
  the concatenated row (xr, hr) of 2048 entries by the whole matrix, the other multiplies each half of the row by its
  half of the matrix and adds. `sum_halves` is the law between them: a sum over 2048 positions is the sum over the first
  1024 plus the sum over the last 1024. It uses only that addition of extended reals is commutative and associative,
  so it needs no finiteness of the summands.
-/
import Idealize.ShloMosaic.PureOps.Ideal
import Mathlib.Algebra.BigOperators.Fin

noncomputable section

namespace Cert.GruCell

open Idealize.ShloMosaic

/-- Position `k` of the first half of a 2048-long axis. -/
def lo (k : Fin 1024) : Fin 2048 := ⟨0 + k.val, by have := k.isLt; omega⟩

/-- Position `k` of the second half of a 2048-long axis. -/
def hi (k : Fin 1024) : Fin 2048 := ⟨1024 + k.val, by have := k.isLt; omega⟩

/-- A sum over 2048 positions is the sum over the first half plus the sum over the second half. -/
theorem sum_halves (f : Fin 2048 → EReal) :
    ∑ c : Fin 2048, f c = (∑ k : Fin 1024, f (lo k)) + ∑ k : Fin 1024, f (hi k) := by
  have e1 : ∀ k : Fin 1024, Fin.castAdd 1024 k = lo k := fun k => Fin.ext (by show k.val = 0 + k.val; omega)
  have e2 : ∀ k : Fin 1024, Fin.natAdd 1024 k = hi k := fun k => Fin.ext rfl
  refine (Fin.sum_univ_add (a := 1024) (b := 1024) f).trans ?_
  simp only [e1, e2]

/-- The gates of a row at column `n`: the logistic function of the input row against the input half of the gate
    matrix, plus the state row against the state half, plus the bias. -/
def gate (xr hr : Fin 1024 → EReal) (gx gh : Fin 1024 → Fin 2048 → EReal) (gb : Fin 2048 → EReal) (n : Fin 2048) : EReal :=
  Ideal.logistic (((∑ k : Fin 1024, xr k * gx k n) + ∑ k : Fin 1024, hr k * gh k n) + gb n)

/-- The candidate state of a row at column `q`, from the input row and the reset-gated state row `rh`. -/
def cand (xr rh : Fin 1024 → EReal) (cx ch : Fin 1024 → Fin 1024 → EReal) (cb : Fin 1024 → EReal) (q : Fin 1024) : EReal :=
  Ideal.tanh (((∑ k : Fin 1024, xr k * cx k q) + ∑ k : Fin 1024, rh k * ch k q) + cb q)

/-- The new state entry from the attention score `a`, the update gate `u`, the old entry `hq` and the candidate `c`. -/
def blend (a u hq c : EReal) : EReal := ((1 - a) * u) * hq + (1 - (1 - a) * u) * c

/-- The new state of a row at column `q`. -/
def out (xr hr : Fin 1024 → EReal) (a : EReal) (gx gh : Fin 1024 → Fin 2048 → EReal) (gb : Fin 2048 → EReal)
    (cx ch : Fin 1024 → Fin 1024 → EReal) (cb : Fin 1024 → EReal) (q : Fin 1024) : EReal :=
  blend a (gate xr hr gx gh gb (hi q)) (hr q)
    (cand xr (fun k => gate xr hr gx gh gb (lo k) * hr k) cx ch cb q)

end Cert.GruCell

end
-- ==== Proof.KernelCell.lean ====
/-
  What the kernel's body leaves in its output block, entry by entry.

  At a grid point the body holds a block of 512 batch rows: the rows `x` of the inputs and `h` of the state (512 × 1024
  each), their attention scores `att` (512 × 1), the input half `wgx` and the state half `wgh` of the gate matrix
  (1024 × 2048 each), the gate bias as one row `bgr` (1 × 2048), the two halves `wcx`, `wch` of the candidate matrix
  (1024 × 1024 each) and the candidate bias as one row `bcr`. Read on the extended reals, a change of float format is
  the identity and a matrix product accumulated from zero is the plain sum of products, so

    the gates at (p, n)      are  σ (Σ_k x(p,k) · wgx(k,n) + Σ_k h(p,k) · wgh(k,n) + bgr(0,n)),
    the candidate at (p, q)  is   tanh (Σ_k x(p,k) · wcx(k,q) + Σ_k (gates(p,k) · h(p,k)) · wch(k,q) + bcr(0,q)),
    the stored entry (p, q)  is   u · h(p,q) + (1 − u) · candidate(p,q)   with  u = (1 − att(p,0)) · gates(p, 1024 + q):

  row `p` of the block is the cell's row function of row `p` of `x`, `h` and `att`.
-/
import proofs.«139915_j13134009991515_2_alg».proof.Proof.Gen.KernelIdeal.Value
import proofs.«139915_j13134009991515_2_alg».proof.Proof.LibPlainDot
import proofs.«139915_j13134009991515_2_alg».proof.Proof.GruCell
import Idealize.ShloMosaic.Lib.ValueLayout
import Idealize.ShloMosaic.Lib.IdealHost

noncomputable section

namespace Cert.KernelIdeal.Cell

open Cert.KernelIdeal Cert.KernelIdeal.Gen Cert.KernelIdeal.Value Idealize.ShloMosaic Idealize.ShloMosaic.ValueIdx

/-- The gates of block row `p` at column `n`. -/
theorem gates_at (x h : FVec Ideal S512x1024 .f32) (wgx wgh : FVec Ideal S1024x2048 .bf16) (bgr : FVec Ideal S1x2048 .f32)
    (p : Fin 512) (n : Fin 2048) :
    k0_pay3 (F := Ideal) x h wgx wgh bgr (ix2 p n)
      = GruCell.gate (fun k => x (ix2 p k)) (fun k => h (ix2 p k)) (fun k n => wgx (ix2 k n)) (fun k n => wgh (ix2 k n))
          (fun n => bgr (ix2 (0 : Fin 1) n)) n := by
  have e1 : matmul (F := Ideal) dot_S512x1024_S1024x2048_S512x2048_1_0_0_1_n_n none (truncf .bf16 x bitsLt_bf16_f32)
        (shapeCast S1024x2048 wgx shapeCasts_S1024x2048_S1024x2048) (constant S512x2048 .f32 0x00000000#32) (ix2 p n)
      = ∑ k : Fin 1024, x (ix2 p k) * wgx (ix2 k n) := by
    rw [shapeCast_self]
    exact LibPlainDot.matmul_zero_apply 512 1024 2048 none _ _ (ix2 p n)
  have e2 : matmul (F := Ideal) dot_S512x1024_S1024x2048_S512x2048_1_0_0_1_n_n none (truncf .bf16 h bitsLt_bf16_f32)
        (shapeCast S1024x2048 wgh shapeCasts_S1024x2048_S1024x2048) (constant S512x2048 .f32 0x00000000#32) (ix2 p n)
      = ∑ k : Fin 1024, h (ix2 p k) * wgh (ix2 k n) := by
    rw [shapeCast_self]
    exact LibPlainDot.matmul_zero_apply 512 1024 2048 none _ _ (ix2 p n)
  have e3 : broadcastTo S512x2048 (shapeCast S1x2048 bgr shapeCasts_S1x2048_S1x2048) broadcasts_S1x2048_S512x2048 (ix2 p n)
      = bgr (ix2 (0 : Fin 1) n) := by
    rw [shapeCast_self]
    exact broadcastTo_1b_ab_apply bgr _ p n
  exact congrArg Ideal.logistic (congrArg₂ (· + ·) (congrArg₂ (· + ·) e1 e2) e3)

/-- The candidate of block row `p` at column `q`: the reset gate is columns 0 … 1023 of the gates. -/
theorem cand_at (x h : FVec Ideal S512x1024 .f32) (wgx wgh : FVec Ideal S1024x2048 .bf16) (bgr : FVec Ideal S1x2048 .f32)
    (wcx wch : FVec Ideal S1024x1024 .bf16) (bcr : FVec Ideal S1x1024 .f32) (p : Fin 512) (q : Fin 1024) :
    k0_pay5 (F := Ideal) x h wgx wgh bgr wcx wch bcr (ix2 p q)
      = GruCell.cand (fun k => x (ix2 p k))
          (fun k => k0_pay3 (F := Ideal) x h wgx wgh bgr (ix2 p (GruCell.lo k)) * h (ix2 p k))
          (fun k q => wcx (ix2 k q)) (fun k q => wch (ix2 k q)) (fun q => bcr (ix2 (0 : Fin 1) q)) q := by
  have e1 : matmul (F := Ideal) dot_S512x1024_S1024x1024_S512x1024_1_0_0_1_n_n none (truncf .bf16 x bitsLt_bf16_f32)
        (shapeCast S1024x1024 wcx shapeCasts_S1024x1024_S1024x1024) (constant S512x1024 .f32 0x00000000#32) (ix2 p q)
      = ∑ k : Fin 1024, x (ix2 p k) * wcx (ix2 k q) := by
    rw [shapeCast_self]
    exact LibPlainDot.matmul_zero_apply 512 1024 1024 none _ _ (ix2 p q)
  have e2 : matmul (F := Ideal) dot_S512x1024_S1024x1024_S512x1024_1_0_0_1_n_n none
        (truncf .bf16 (mulf (extractStridedSlice S512x1024 ![0, 0] (k0_pay3 (F := Ideal) x h wgx wgh bgr) slices_S512x2048_o0_0_S512x1024) h) bitsLt_bf16_f32)
        (shapeCast S1024x1024 wch shapeCasts_S1024x1024_S1024x1024) (constant S512x1024 .f32 0x00000000#32) (ix2 p q)
      = ∑ k : Fin 1024, (k0_pay3 (F := Ideal) x h wgx wgh bgr (ix2 p (GruCell.lo k)) * h (ix2 p k)) * wch (ix2 k q) := by
    rw [shapeCast_self]
    refine (LibPlainDot.matmul_zero_apply 512 1024 1024 none _ _ (ix2 p q)).trans ?_
    refine Finset.sum_congr rfl fun k _ => ?_
    show (extractStridedSlice S512x1024 ![0, 0] (k0_pay3 (F := Ideal) x h wgx wgh bgr) slices_S512x2048_o0_0_S512x1024 (ix2 p k)
        * h (ix2 p k)) * wch (ix2 k q) = _
    rw [slice2_axis1_eq]
    rfl
  have e3 : broadcastTo S512x1024 (shapeCast S1x1024 bcr shapeCasts_S1x1024_S1x1024) broadcasts_S1x1024_S512x1024 (ix2 p q)
      = bcr (ix2 (0 : Fin 1) q) := by
    rw [shapeCast_self]
    exact broadcastTo_1b_ab_apply bcr _ p q
  exact congrArg Ideal.tanh (congrArg₂ (· + ·) (congrArg₂ (· + ·) e1 e2) e3)

/-- The f32 pattern of 1.0, as the vector unit splats it, is the extended real one. -/
theorem one_splat : Scalar.ofBits (F := Ideal) .f32 0x3F800000#32 = (1 : EReal) :=
  Ideal.ofBits_one_f32

/-- Entry (p, q) of the block the body stores is the cell's row function of block row `p`, at column `q`. -/
theorem block_at (att : FVec Ideal S512x1 .f32) (x h : FVec Ideal S512x1024 .f32) (wgx wgh : FVec Ideal S1024x2048 .bf16)
    (bgr : FVec Ideal S1x2048 .f32) (wcx wch : FVec Ideal S1024x1024 .bf16) (bcr : FVec Ideal S1x1024 .f32)
    (p : Fin 512) (q : Fin 1024) :
    E9 (F := Ideal) att x h wgx wgh bgr wcx wch bcr (ix2 p q)
      = GruCell.out (fun k => x (ix2 p k)) (fun k => h (ix2 p k)) (att (ix2 p (0 : Fin 1)))
          (fun k n => wgx (ix2 k n)) (fun k n => wgh (ix2 k n)) (fun n => bgr (ix2 (0 : Fin 1) n))
          (fun k q => wcx (ix2 k q)) (fun k q => wch (ix2 k q)) (fun q => bcr (ix2 (0 : Fin 1) q)) q := by
  have i0 : ix9_0 (ix2 p q) = ix2 p (0 : Fin 1) :=
    funext fun a => Fin.ext (by match a with | ⟨0, _⟩ => rfl | ⟨1, _⟩ => rfl)
  have i1 : ix9_1 (ix2 p q) = ix2 p (GruCell.hi q) :=
    funext fun a => Fin.ext (by match a with | ⟨0, _⟩ => rfl | ⟨1, _⟩ => (show q.val + 1024 = 1024 + q.val; omega))
  have i2 : ix9_2 (ix2 p q) = ix2 p q :=
    funext fun a => Fin.ext (by match a with | ⟨0, _⟩ => rfl | ⟨1, _⟩ => rfl)
  show ((Scalar.ofBits (F := Ideal) .f32 0x3F800000#32 - att (ix9_0 (ix2 p q)))
          * k0_pay3 (F := Ideal) x h wgx wgh bgr (ix9_1 (ix2 p q))) * h (ix9_2 (ix2 p q))
      + (Scalar.ofBits (F := Ideal) .f32 0x3F800000#32
          - (Scalar.ofBits (F := Ideal) .f32 0x3F800000#32 - att (ix9_0 (ix2 p q)))
            * k0_pay3 (F := Ideal) x h wgx wgh bgr (ix9_1 (ix2 p q)))
        * k0_pay5 (F := Ideal) x h wgx wgh bgr wcx wch bcr (ix9_2 (ix2 p q)) = _
  rw [i0, i1, i2, one_splat, cand_at]
  simp only [gates_at]
  rfl

/-- The zero offsets of a whole-block access, as the constant function. -/
theorem hz : (![0, 0] : Fin 2 → Nat) = fun _ => 0 := funext fun a => by fin_cases a <;> rfl

/-- The body loads each window's whole block and stores the whole output block once, so what it leaves in the output's
    buffer is that store's payload of the loaded blocks: entry (p, q) is the cell's row function of row `p` of the
    blocks `x0` (inputs), `x1` (state) and `x2` (attention), at column `q`. -/
theorem out_at (x0 x1 : FVec Ideal S512x1024 .f32) (x2 : FVec Ideal S512x1 .f32) (x3 x4 : FVec Ideal S1024x2048 .bf16)
    (x5 : FVec Ideal S1x2048 .f32) (x6 x7 : FVec Ideal S1024x1024 .bf16) (x8 : FVec Ideal S1x1024 .f32)
    (p : Fin 512) (q : Fin 1024) :
    out0_9 (F := Ideal) x0 x1 x2 x3 x4 x5 x6 x7 x8 (ix2 p q)
      = GruCell.out (fun k => x0 (ix2 p k)) (fun k => x1 (ix2 p k)) (x2 (ix2 p (0 : Fin 1)))
          (fun k n => x3 (ix2 k n)) (fun k n => x4 (ix2 k n)) (fun n => x5 (ix2 (0 : Fin 1) n))
          (fun k q => x6 (ix2 k q)) (fun k q => x7 (ix2 k q)) (fun q => x8 (ix2 (0 : Fin 1) q)) q := by
  unfold out0_9
  simp only [View.ld_unit_zero (S := S512x1024) hz, View.ld_unit_zero (S := S512x1) hz,
    View.ld_unit_zero (S := S1024x2048) hz, View.ld_unit_zero (S := S1x2048) hz,
    View.ld_unit_zero (S := S1024x1024) hz, View.ld_unit_zero (S := S1x1024) hz]
  rw [canon9_eq]
  exact block_at x2 x0 x1 x3 x4 x5 x6 x7 x8 p q

end Cert.KernelIdeal.Cell

end
-- ==== Proof.GruArray.lean ====
/-
  The new state as one function of the seven argument arrays.

  The cell acts on each batch row by itself: entry (r, q) of the result is the row function of row `r` of the inputs
  `x0`, of the state `x2` and of the attention scores `x1`, with the gate matrix `x3` cut into its first and last 1024
  rows (the input half and the state half), likewise the candidate matrix `x5`, and the two biases `x4`, `x6`.
-/
import proofs.«139915_j13134009991515_2_alg».proof.Proof.GruCell
import Idealize.ShloMosaic.Lib.ValueIdx

noncomputable section

namespace Cert.GruCell

open Idealize.ShloMosaic Idealize.ShloMosaic.ValueIdx

/-- Entry (r, q) of the new state. -/
def entry (x0 : (⟨2, ![16384, 1024]⟩ : Shape).Idx → EReal) (x1 : (⟨2, ![16384, 1]⟩ : Shape).Idx → EReal)
    (x2 : (⟨2, ![16384, 1024]⟩ : Shape).Idx → EReal) (x3 : (⟨2, ![2048, 2048]⟩ : Shape).Idx → EReal)
    (x4 : (⟨1, ![2048]⟩ : Shape).Idx → EReal) (x5 : (⟨2, ![2048, 1024]⟩ : Shape).Idx → EReal)
    (x6 : (⟨1, ![1024]⟩ : Shape).Idx → EReal) (r : Fin 16384) (q : Fin 1024) : EReal :=
  out (fun k => x0 (ix2 r k)) (fun k => x2 (ix2 r k)) (x1 (ix2 r (0 : Fin 1)))
    (fun k n => x3 (ix2 (lo k) n)) (fun k n => x3 (ix2 (hi k) n)) (fun n => x4 (ix1 n))
    (fun k q => x5 (ix2 (lo k) q)) (fun k q => x5 (ix2 (hi k) q)) (fun q => x6 (ix1 q)) q

/-- The new state array. -/
def G (x0 : (⟨2, ![16384, 1024]⟩ : Shape).Idx → EReal) (x1 : (⟨2, ![16384, 1]⟩ : Shape).Idx → EReal)
    (x2 : (⟨2, ![16384, 1024]⟩ : Shape).Idx → EReal) (x3 : (⟨2, ![2048, 2048]⟩ : Shape).Idx → EReal)
    (x4 : (⟨1, ![2048]⟩ : Shape).Idx → EReal) (x5 : (⟨2, ![2048, 1024]⟩ : Shape).Idx → EReal)
    (x6 : (⟨1, ![1024]⟩ : Shape).Idx → EReal) : (⟨2, ![16384, 1024]⟩ : Shape).Idx → EReal :=
  fun j => entry x0 x1 x2 x3 x4 x5 x6 (j 0) (j 1)

theorem G_at (x0 : (⟨2, ![16384, 1024]⟩ : Shape).Idx → EReal) (x1 : (⟨2, ![16384, 1]⟩ : Shape).Idx → EReal)
    (x2 : (⟨2, ![16384, 1024]⟩ : Shape).Idx → EReal) (x3 : (⟨2, ![2048, 2048]⟩ : Shape).Idx → EReal)
    (x4 : (⟨1, ![2048]⟩ : Shape).Idx → EReal) (x5 : (⟨2, ![2048, 1024]⟩ : Shape).Idx → EReal)
    (x6 : (⟨1, ![1024]⟩ : Shape).Idx → EReal) (r : Fin 16384) (q : Fin 1024) :
    G x0 x1 x2 x3 x4 x5 x6 (ix2 r q) = entry x0 x1 x2 x3 x4 x5 x6 r q := rfl

/-- The row function depends on its data only through their values: equal rows, matrices and biases give equal entries. -/
theorem out_congr {xr xr' hr hr' : Fin 1024 → EReal} {a a' : EReal} {gx gx' gh gh' : Fin 1024 → Fin 2048 → EReal}
    {gb gb' : Fin 2048 → EReal} {cx cx' ch ch' : Fin 1024 → Fin 1024 → EReal} {cb cb' : Fin 1024 → EReal}
    (h0 : xr = xr') (h1 : hr = hr') (h2 : a = a') (h3 : gx = gx') (h4 : gh = gh') (h5 : gb = gb')
    (h6 : cx = cx') (h7 : ch = ch') (h8 : cb = cb') (q : Fin 1024) :
    out xr hr a gx gh gb cx ch cb q = out xr' hr' a' gx' gh' gb' cx' ch' cb' q := by
  rw [h0, h1, h2, h3, h4, h5, h6, h7, h8]

end Cert.GruCell

end
-- ==== Proof.KernelArray.lean ====
/-
  From the blocks to the whole array: after the run the result array is the new state `GruCell.G` of the arguments.

  The grid has 32 points. Point `t` works on batch rows 512·t … 512·t + 511: its blocks of the inputs, of the state and
  of the attention scores are those rows of the three arguments, and it writes those rows of the result. The four
  matrix halves and the two biases are the same whole block at every point. They are not arguments but arrays the
  host prepares before the launch: rows 0 … 1023 and rows 1024 … 2047 of the gate matrix and of the candidate matrix
  (converted to a shorter float format, which is the identity on the extended reals), and each bias as a one-row
  matrix. So what point `t` writes back is rows 512·t … 512·t + 511 of `G`; every row lies in the block of the point
  `row / 512`, hence the blocks cover the array and the array ends holding `G`.
-/
import proofs.«139915_j13134009991515_2_alg».proof.Proof.KernelCell
import proofs.«139915_j13134009991515_2_alg».proof.Proof.GruArray
import Idealize.ShloMosaic.Lib.Pipeline.Value
import Idealize.ShloMosaic.Lib.StableHlo.Run
import Idealize.ShloMosaic.Lib.ValueLayout

noncomputable section

namespace Cert.KernelIdeal.Arr

open Cert.KernelIdeal Cert.KernelIdeal.Gen Cert.KernelIdeal.Value Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-! ## The arrays the host prepares before the launch -/

/-- The input half of the gate matrix, as the region finds it: rows 0 … 1023 of the argument (the change of float format is the identity). -/
theorem V_v1_at (c : Dev nD) (k : Fin 1024) (n : Fin 2048) :
    (V m c main_v1 : FVec Ideal S1024x2048 .bf16) (ix2 k n) = (m ((c : Thread nD τ).loc main_arg3) : FVec Ideal S2048x2048 .f32) (ix2 (GruCell.lo k) n) := by
  have e : (V m c main_v1 : FVec Ideal S1024x2048 .bf16)
      = truncf (F := Ideal) .bf16 (extractStridedSlice S1024x2048 ![0, 0] (m ((c : Thread nD τ).loc main_arg3) : FVec Ideal S2048x2048 .f32) slices_S2048x2048_S1024x2048_0_0) bitsLt_bf16_f32 := by
    dsimp only [V, hostOps0]; after_results
  rw [e]
  show extractStridedSlice S1024x2048 ![0, 0] (m ((c : Thread nD τ).loc main_arg3) : FVec Ideal S2048x2048 .f32) slices_S2048x2048_S1024x2048_0_0 (ix2 k n) = _
  rw [slice2_axis0_eq]
  rfl

/-- The state half of the gate matrix, as the region finds it: rows 1024 … 2047 of the argument (the change of float format is the identity). -/
theorem V_v3_at (c : Dev nD) (k : Fin 1024) (n : Fin 2048) :
    (V m c main_v3 : FVec Ideal S1024x2048 .bf16) (ix2 k n) = (m ((c : Thread nD τ).loc main_arg3) : FVec Ideal S2048x2048 .f32) (ix2 (GruCell.hi k) n) := by
  have e : (V m c main_v3 : FVec Ideal S1024x2048 .bf16)
      = truncf (F := Ideal) .bf16 (extractStridedSlice S1024x2048 ![1024, 0] (m ((c : Thread nD τ).loc main_arg3) : FVec Ideal S2048x2048 .f32) slices_S2048x2048_S1024x2048_1024_0) bitsLt_bf16_f32 := by
    dsimp only [V, hostOps0]; after_results
  rw [e]
  show extractStridedSlice S1024x2048 ![1024, 0] (m ((c : Thread nD τ).loc main_arg3) : FVec Ideal S2048x2048 .f32) slices_S2048x2048_S1024x2048_1024_0 (ix2 k n) = _
  rw [slice2_axis0_eq]
  rfl

/-- The input half of the candidate matrix, as the region finds it: rows 0 … 1023 of the argument (the change of float format is the identity). -/
theorem V_v5_at (c : Dev nD) (k : Fin 1024) (n : Fin 1024) :
    (V m c main_v5 : FVec Ideal S1024x1024 .bf16) (ix2 k n) = (m ((c : Thread nD τ).loc main_arg5) : FVec Ideal S2048x1024 .f32) (ix2 (GruCell.lo k) n) := by
  have e : (V m c main_v5 : FVec Ideal S1024x1024 .bf16)
      = truncf (F := Ideal) .bf16 (extractStridedSlice S1024x1024 ![0, 0] (m ((c : Thread nD τ).loc main_arg5) : FVec Ideal S2048x1024 .f32) slices_S2048x1024_S1024x1024_0_0) bitsLt_bf16_f32 := by
    dsimp only [V, hostOps0]; after_results
  rw [e]
  show extractStridedSlice S1024x1024 ![0, 0] (m ((c : Thread nD τ).loc main_arg5) : FVec Ideal S2048x1024 .f32) slices_S2048x1024_S1024x1024_0_0 (ix2 k n) = _
  rw [slice2_axis0_eq]
  rfl

/-- The state half of the candidate matrix, as the region finds it: rows 1024 … 2047 of the argument (the change of float format is the identity). -/
theorem V_v7_at (c : Dev nD) (k : Fin 1024) (n : Fin 1024) :
    (V m c main_v7 : FVec Ideal S1024x1024 .bf16) (ix2 k n) = (m ((c : Thread nD τ).loc main_arg5) : FVec Ideal S2048x1024 .f32) (ix2 (GruCell.hi k) n) := by
  have e : (V m c main_v7 : FVec Ideal S1024x1024 .bf16)
      = truncf (F := Ideal) .bf16 (extractStridedSlice S1024x1024 ![1024, 0] (m ((c : Thread nD τ).loc main_arg5) : FVec Ideal S2048x1024 .f32) slices_S2048x1024_S1024x1024_1024_0) bitsLt_bf16_f32 := by
    dsimp only [V, hostOps0]; after_results
  rw [e]
  show extractStridedSlice S1024x1024 ![1024, 0] (m ((c : Thread nD τ).loc main_arg5) : FVec Ideal S2048x1024 .f32) slices_S2048x1024_S1024x1024_1024_0 (ix2 k n) = _
  rw [slice2_axis0_eq]
  rfl

/-- The gate bias, as the region finds it: the argument as one row. -/
theorem V_v8_at (c : Dev nD) (n : Fin 2048) :
    (V m c main_v8 : FVec Ideal S1x2048 .f32) (ix2 (0 : Fin 1) n) = (m ((c : Thread nD τ).loc main_arg4) : FVec Ideal S2048 .f32) (ix1 n) := by
  have e : (V m c main_v8 : FVec Ideal S1x2048 .f32) = shapeCast S1x2048 (m ((c : Thread nD τ).loc main_arg4) : FVec Ideal S2048 .f32) shapeCasts_S2048_S1x2048 := by
    dsimp only [V, hostOps0]; after_results; rfl
  rw [e]
  exact shapeCast_a_1a_apply _ _ (0 : Fin 1) n

/-- The candidate bias, as the region finds it: the argument as one row. -/
theorem V_v9_at (c : Dev nD) (n : Fin 1024) :
    (V m c main_v9 : FVec Ideal S1x1024 .f32) (ix2 (0 : Fin 1) n) = (m ((c : Thread nD τ).loc main_arg6) : FVec Ideal S1024 .f32) (ix1 n) := by
  have e : (V m c main_v9 : FVec Ideal S1x1024 .f32) = shapeCast S1x1024 (m ((c : Thread nD τ).loc main_arg6) : FVec Ideal S1024 .f32) shapeCasts_S1024_S1x1024 := by
    dsimp only [V, hostOps0]; after_results; rfl
  rw [e]
  exact shapeCast_a_1a_apply _ _ (0 : Fin 1) n

/-! ## Where each window's block sits, decided over the 32 grid points -/

theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
theorem idx2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)
theorem idx9 : ∀ t : Fin cfg0.N, win0_9.index t (0 : Fin 2) = t.val ∧ win0_9.index t (1 : Fin 2) = 0 :=
  (by decide +kernel : ∀ t : Fin grid0.N, win0_9.index t (0 : Fin 2) = t.val ∧ win0_9.index t (1 : Fin 2) = 0)
theorem idx3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem idx4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
theorem idx5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)
theorem idx6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)
theorem idx7 : ∀ t : Fin cfg0.N, win0_7.index t (0 : Fin 2) = 0 ∧ win0_7.index t (1 : Fin 2) = 0 :=
  (by decide +kernel : ∀ t : Fin grid0.N, win0_7.index t (0 : Fin 2) = 0 ∧ win0_7.index t (1 : Fin 2) = 0)
theorem idx8 : ∀ t : Fin cfg0.N, win0_8.index t (0 : Fin 2) = 0 ∧ win0_8.index t (1 : Fin 2) = 0 :=
  (by decide +kernel : ∀ t : Fin grid0.N, win0_8.index t (0 : Fin 2) = 0 ∧ win0_8.index t (1 : Fin 2) = 0)

/-! ## Each window's block at a point, entry by entry -/

/-- The inputs' block at point `t` is rows 512·t … of the inputs. -/
theorem iblk0_at (c : Dev nD) (t : Fin cfg0.N) (p : Fin 512) (k : Fin 1024) (R : Fin 16384) (hR : R.val = t.val * 512 + p.val) :
    (iblk m c 0 t : FVec Ideal S512x1024 .f32) (ix2 p k) = (m ((c : Thread nD τ).loc main_arg0) : FVec Ideal S16384x1024 .f32) (ix2 R k) := by
  obtain ⟨e0, e1⟩ := idx0 t
  unfold iblk
  rw [View.read_apply]
  show V m c main_arg0 (((cfg0.win 0).blk t).view.emb (ix2 p k)) = _
  rw [V_main_arg0]
  refine congrArg (m ((c : Thread nD τ).loc main_arg0) : FVec Ideal S16384x1024 .f32) (funext fun a => Fin.ext ?_)
  match a with
  | ⟨0, _⟩ => show win0_0.index t (0 : Fin 2) * 512 + 1 * p.val = R.val; rw [e0, hR]; omega
  | ⟨1, _⟩ => show win0_0.index t (1 : Fin 2) * 1024 + 1 * k.val = k.val; rw [e1]; omega

/-- The state's block at point `t` is rows 512·t … of the state. -/
theorem iblk1_at (c : Dev nD) (t : Fin cfg0.N) (p : Fin 512) (k : Fin 1024) (R : Fin 16384) (hR : R.val = t.val * 512 + p.val) :
    (iblk m c 1 t : FVec Ideal S512x1024 .f32) (ix2 p k) = (m ((c : Thread nD τ).loc main_arg2) : FVec Ideal S16384x1024 .f32) (ix2 R k) := by
  obtain ⟨e0, e1⟩ := idx1 t
  unfold iblk
  rw [View.read_apply]
  show V m c main_arg2 (((cfg0.win 1).blk t).view.emb (ix2 p k)) = _
  rw [V_main_arg2]
  refine congrArg (m ((c : Thread nD τ).loc main_arg2) : FVec Ideal S16384x1024 .f32) (funext fun a => Fin.ext ?_)
  match a with
  | ⟨0, _⟩ => show win0_1.index t (0 : Fin 2) * 512 + 1 * p.val = R.val; rw [e0, hR]; omega
  | ⟨1, _⟩ => show win0_1.index t (1 : Fin 2) * 1024 + 1 * k.val = k.val; rw [e1]; omega

/-- The attention scores' block at point `t` is rows 512·t … of the scores. -/
theorem iblk2_at (c : Dev nD) (t : Fin cfg0.N) (p : Fin 512) (R : Fin 16384) (hR : R.val = t.val * 512 + p.val) :
    (iblk m c 2 t : FVec Ideal S512x1 .f32) (ix2 p (0 : Fin 1)) = (m ((c : Thread nD τ).loc main_arg1) : FVec Ideal S16384x1 .f32) (ix2 R (0 : Fin 1)) := by
  obtain ⟨e0, e1⟩ := idx2 t
  unfold iblk
  rw [View.read_apply]
  show V m c main_arg1 (((cfg0.win 2).blk t).view.emb (ix2 p (0 : Fin 1))) = _
  rw [V_main_arg1]
  refine congrArg (m ((c : Thread nD τ).loc main_arg1) : FVec Ideal S16384x1 .f32) (funext fun a => Fin.ext ?_)
  match a with
  | ⟨0, _⟩ => show win0_2.index t (0 : Fin 2) * 512 + 1 * p.val = R.val; rw [e0, hR]; omega
  | ⟨1, _⟩ => show win0_2.index t (1 : Fin 2) * 1 + 1 * 0 = 0; rw [e1]

/-- The matrix halves and the biases are one whole block, the same at every point. -/
theorem iblk3_at (c : Dev nD) (t : Fin cfg0.N) (k : Fin 1024) (n : Fin 2048) :
    (iblk m c 3 t : FVec Ideal S1024x2048 .bf16) (ix2 k n) = (m ((c : Thread nD τ).loc main_arg3) : FVec Ideal S2048x2048 .f32) (ix2 (GruCell.lo k) n) := by
  obtain ⟨e0, e1⟩ := idx3 t
  have he : ((cfg0.win 3).blk t).view.emb (ix2 k n) = ix2 k n := funext fun a => Fin.ext (by
    match a with
    | ⟨0, _⟩ => show win0_3.index t (0 : Fin 2) * 1024 + 1 * k.val = k.val; rw [e0]; omega
    | ⟨1, _⟩ => show win0_3.index t (1 : Fin 2) * 2048 + 1 * n.val = n.val; rw [e1]; omega)
  unfold iblk
  rw [View.read_apply]
  show (V m c main_v1 : FVec Ideal S1024x2048 .bf16) (((cfg0.win 3).blk t).view.emb (ix2 k n)) = _
  exact (congrArg (V m c main_v1 : FVec Ideal S1024x2048 .bf16) he).trans (V_v1_at m c k n)

theorem iblk4_at (c : Dev nD) (t : Fin cfg0.N) (k : Fin 1024) (n : Fin 2048) :
    (iblk m c 4 t : FVec Ideal S1024x2048 .bf16) (ix2 k n) = (m ((c : Thread nD τ).loc main_arg3) : FVec Ideal S2048x2048 .f32) (ix2 (GruCell.hi k) n) := by
  obtain ⟨e0, e1⟩ := idx4 t
  have he : ((cfg0.win 4).blk t).view.emb (ix2 k n) = ix2 k n := funext fun a => Fin.ext (by
    match a with
    | ⟨0, _⟩ => show win0_4.index t (0 : Fin 2) * 1024 + 1 * k.val = k.val; rw [e0]; omega
    | ⟨1, _⟩ => show win0_4.index t (1 : Fin 2) * 2048 + 1 * n.val = n.val; rw [e1]; omega)
  unfold iblk
  rw [View.read_apply]
  show (V m c main_v3 : FVec Ideal S1024x2048 .bf16) (((cfg0.win 4).blk t).view.emb (ix2 k n)) = _
  exact (congrArg (V m c main_v3 : FVec Ideal S1024x2048 .bf16) he).trans (V_v3_at m c k n)

theorem iblk5_at (c : Dev nD) (t : Fin cfg0.N) (n : Fin 2048) :
    (iblk m c 5 t : FVec Ideal S1x2048 .f32) (ix2 (0 : Fin 1) n) = (m ((c : Thread nD τ).loc main_arg4) : FVec Ideal S2048 .f32) (ix1 n) := by
  obtain ⟨e0, e1⟩ := idx5 t
  have he : ((cfg0.win 5).blk t).view.emb (ix2 (0 : Fin 1) n) = ix2 (0 : Fin 1) n := funext fun a => Fin.ext (by
    match a with
    | ⟨0, _⟩ => show win0_5.index t (0 : Fin 2) * 1 + 1 * 0 = 0; rw [e0]
    | ⟨1, _⟩ => show win0_5.index t (1 : Fin 2) * 2048 + 1 * n.val = n.val; rw [e1]; omega)
  unfold iblk
  rw [View.read_apply]
  show (V m c main_v8 : FVec Ideal S1x2048 .f32) (((cfg0.win 5).blk t).view.emb (ix2 (0 : Fin 1) n)) = _
  exact (congrArg (V m c main_v8 : FVec Ideal S1x2048 .f32) he).trans (V_v8_at m c n)

theorem iblk6_at (c : Dev nD) (t : Fin cfg0.N) (k : Fin 1024) (n : Fin 1024) :
    (iblk m c 6 t : FVec Ideal S1024x1024 .bf16) (ix2 k n) = (m ((c : Thread nD τ).loc main_arg5) : FVec Ideal S2048x1024 .f32) (ix2 (GruCell.lo k) n) := by
  obtain ⟨e0, e1⟩ := idx6 t
  have he : ((cfg0.win 6).blk t).view.emb (ix2 k n) = ix2 k n := funext fun a => Fin.ext (by
    match a with
    | ⟨0, _⟩ => show win0_6.index t (0 : Fin 2) * 1024 + 1 * k.val = k.val; rw [e0]; omega
    | ⟨1, _⟩ => show win0_6.index t (1 : Fin 2) * 1024 + 1 * n.val = n.val; rw [e1]; omega)
  unfold iblk
  rw [View.read_apply]
  show (V m c main_v5 : FVec Ideal S1024x1024 .bf16) (((cfg0.win 6).blk t).view.emb (ix2 k n)) = _
  exact (congrArg (V m c main_v5 : FVec Ideal S1024x1024 .bf16) he).trans (V_v5_at m c k n)

theorem iblk7_at (c : Dev nD) (t : Fin cfg0.N) (k : Fin 1024) (n : Fin 1024) :
    (iblk m c 7 t : FVec Ideal S1024x1024 .bf16) (ix2 k n) = (m ((c : Thread nD τ).loc main_arg5) : FVec Ideal S2048x1024 .f32) (ix2 (GruCell.hi k) n) := by
  obtain ⟨e0, e1⟩ := idx7 t
  have he : ((cfg0.win 7).blk t).view.emb (ix2 k n) = ix2 k n := funext fun a => Fin.ext (by
    match a with
    | ⟨0, _⟩ => show win0_7.index t (0 : Fin 2) * 1024 + 1 * k.val = k.val; rw [e0]; omega
    | ⟨1, _⟩ => show win0_7.index t (1 : Fin 2) * 1024 + 1 * n.val = n.val; rw [e1]; omega)
  unfold iblk
  rw [View.read_apply]
  show (V m c main_v7 : FVec Ideal S1024x1024 .bf16) (((cfg0.win 7).blk t).view.emb (ix2 k n)) = _
  exact (congrArg (V m c main_v7 : FVec Ideal S1024x1024 .bf16) he).trans (V_v7_at m c k n)

theorem iblk8_at (c : Dev nD) (t : Fin cfg0.N) (n : Fin 1024) :
    (iblk m c 8 t : FVec Ideal S1x1024 .f32) (ix2 (0 : Fin 1) n) = (m ((c : Thread nD τ).loc main_arg6) : FVec Ideal S1024 .f32) (ix1 n) := by
  obtain ⟨e0, e1⟩ := idx8 t
  have he : ((cfg0.win 8).blk t).view.emb (ix2 (0 : Fin 1) n) = ix2 (0 : Fin 1) n := funext fun a => Fin.ext (by
    match a with
    | ⟨0, _⟩ => show win0_8.index t (0 : Fin 2) * 1 + 1 * 0 = 0; rw [e0]
    | ⟨1, _⟩ => show win0_8.index t (1 : Fin 2) * 1024 + 1 * n.val = n.val; rw [e1]; omega)
  unfold iblk
  rw [View.read_apply]
  show (V m c main_v9 : FVec Ideal S1x1024 .f32) (((cfg0.win 8).blk t).view.emb (ix2 (0 : Fin 1) n)) = _
  exact (congrArg (V m c main_v9 : FVec Ideal S1x1024 .f32) he).trans (V_v9_at m c n)

/-! ## What a point writes back, the cover, and the array after the run -/

/-- What point `t` writes back is rows 512·t … 512·t + 511 of the new state of the arguments. -/
theorem flushed_eq (c : Dev nD) (t : Fin cfg0.N) :
    (dats m 0 c).flushed 9 t = ((cfg0.win 9).blk t).view.read (Elt Ideal) (GruCell.G (m ((c : Thread nD τ).loc main_arg0) : FVec Ideal S16384x1024 .f32) (m ((c : Thread nD τ).loc main_arg1) : FVec Ideal S16384x1 .f32) (m ((c : Thread nD τ).loc main_arg2) : FVec Ideal S16384x1024 .f32) (m ((c : Thread nD τ).loc main_arg3) : FVec Ideal S2048x2048 .f32) (m ((c : Thread nD τ).loc main_arg4) : FVec Ideal S2048 .f32) (m ((c : Thread nD τ).loc main_arg5) : FVec Ideal S2048x1024 .f32) (m ((c : Thread nD τ).loc main_arg6) : FVec Ideal S1024 .f32)) := by
  have ht : t.val < 32 := lt_of_lt_of_eq t.isLt N_0
  obtain ⟨e0, e1⟩ := idx9 t
  show (cfg0.win 9).cut (grid0.coords t) ((dats m 0 c).after 9 t) = _
  rw [after0_9]
  funext j
  obtain ⟨p, q, rfl⟩ : ∃ (p : Fin 512) (q : Fin 1024), j = ix2 p q := ⟨j 0, j 1, eq_ix2 j⟩
  have hemb : ((cfg0.win 9).blk t).view.emb (ix2 p q)
      = ix2 (⟨t.val * 512 + p.val, by have := p.isLt; omega⟩ : Fin 16384) q := funext fun a => Fin.ext (by
    match a with
    | ⟨0, _⟩ => show win0_9.index t (0 : Fin 2) * 512 + 1 * p.val = t.val * 512 + p.val; rw [e0]; omega
    | ⟨1, _⟩ => show win0_9.index t (1 : Fin 2) * 1024 + 1 * q.val = q.val; rw [e1]; omega)
  show out0_9 (iblk m c 0 t) (iblk m c 1 t) (iblk m c 2 t) (iblk m c 3 t) (iblk m c 4 t) (iblk m c 5 t) (iblk m c 6 t)
      (iblk m c 7 t) (iblk m c 8 t) (ix2 p q) = (GruCell.G (m ((c : Thread nD τ).loc main_arg0) : FVec Ideal S16384x1024 .f32) (m ((c : Thread nD τ).loc main_arg1) : FVec Ideal S16384x1 .f32) (m ((c : Thread nD τ).loc main_arg2) : FVec Ideal S16384x1024 .f32) (m ((c : Thread nD τ).loc main_arg3) : FVec Ideal S2048x2048 .f32) (m ((c : Thread nD τ).loc main_arg4) : FVec Ideal S2048 .f32) (m ((c : Thread nD τ).loc main_arg5) : FVec Ideal S2048x1024 .f32) (m ((c : Thread nD τ).loc main_arg6) : FVec Ideal S1024 .f32)) (((cfg0.win 9).blk t).view.emb (ix2 p q))
  refine Eq.trans ?_ (congrArg (GruCell.G (m ((c : Thread nD τ).loc main_arg0) : FVec Ideal S16384x1024 .f32) (m ((c : Thread nD τ).loc main_arg1) : FVec Ideal S16384x1 .f32) (m ((c : Thread nD τ).loc main_arg2) : FVec Ideal S16384x1024 .f32) (m ((c : Thread nD τ).loc main_arg3) : FVec Ideal S2048x2048 .f32) (m ((c : Thread nD τ).loc main_arg4) : FVec Ideal S2048 .f32) (m ((c : Thread nD τ).loc main_arg5) : FVec Ideal S2048x1024 .f32) (m ((c : Thread nD τ).loc main_arg6) : FVec Ideal S1024 .f32)) hemb).symm
  refine (Cell.out_at (iblk m c 0 t) (iblk m c 1 t) (iblk m c 2 t) (iblk m c 3 t) (iblk m c 4 t) (iblk m c 5 t)
    (iblk m c 6 t) (iblk m c 7 t) (iblk m c 8 t) p q).trans ?_
  exact GruCell.out_congr (funext fun k => iblk0_at m c t p k _ rfl) (funext fun k => iblk1_at m c t p k _ rfl)
    (iblk2_at m c t p _ rfl) (funext fun k => funext fun n => iblk3_at m c t k n)
    (funext fun k => funext fun n => iblk4_at m c t k n) (funext fun n => iblk5_at m c t n)
    (funext fun k => funext fun n => iblk6_at m c t k n) (funext fun k => funext fun n => iblk7_at m c t k n)
    (funext fun n => iblk8_at m c t n) q

/-- An index of the result array is in point `t`'s block iff each coordinate is in the block's range on its axis. -/
theorem mem_blk (t : Fin cfg0.N) (i : S16384x1024.Idx) :
    i ∈ ((cfg0.win 9).blk t).view.set ↔ ∀ a : Fin 2, win0_9.index t a * S512x1024.size a ≤ (i a).val
      ∧ (i a).val < win0_9.index t a * S512x1024.size a + S512x1024.size a := by
  show i ∈ ((View.whole main_v10).slice (win0_9.rect t)).set ↔ _
  rw [View.set_slice_whole, Rect.mem_set_unit]
  exact Iff.rfl

/-- Every index of the result array lies in the block of the point `row / 512`. -/
theorem cover (i : S16384x1024.Idx) :
    ∃ t : Fin cfg0.N, (cfg0.win 9).flush t = true ∧ i ∈ ((cfg0.win 9).blk t).view.set := by
  have hi0 : (i 0).val < 16384 := (i 0).isLt
  have hi1 : (i 1).val < 1024 := (i 1).isLt
  have hN : cfg0.N = 32 := N_0
  have hlt : (i 0).val / 512 < cfg0.N := by rw [hN]; omega
  obtain ⟨e0, e1⟩ := idx9 ⟨(i 0).val / 512, hlt⟩
  refine ⟨⟨(i 0).val / 512, hlt⟩, flush0_9 _, ?_⟩
  rw [mem_blk]
  intro a
  match a with
  | ⟨0, _⟩ =>
    show win0_9.index ⟨(i 0).val / 512, hlt⟩ (0 : Fin 2) * 512 ≤ (i 0).val
      ∧ (i 0).val < win0_9.index ⟨(i 0).val / 512, hlt⟩ (0 : Fin 2) * 512 + 512
    rw [e0]
    show (i 0).val / 512 * 512 ≤ (i 0).val ∧ (i 0).val < (i 0).val / 512 * 512 + 512
    omega
  | ⟨1, _⟩ =>
    show win0_9.index ⟨(i 0).val / 512, hlt⟩ (1 : Fin 2) * 1024 ≤ (i 1).val
      ∧ (i 1).val < win0_9.index ⟨(i 0).val / 512, hlt⟩ (1 : Fin 2) * 1024 + 1024
    rw [e1]
    omega

/-- The result array after the run is the new state of the arguments. -/
theorem final (c : Dev nD) : (dats m 0 c).arrAt 9 cfg0.N = (GruCell.G (m ((c : Thread nD τ).loc main_arg0) : FVec Ideal S16384x1024 .f32) (m ((c : Thread nD τ).loc main_arg1) : FVec Ideal S16384x1 .f32) (m ((c : Thread nD τ).loc main_arg2) : FVec Ideal S16384x1024 .f32) (m ((c : Thread nD τ).loc main_arg3) : FVec Ideal S2048x2048 .f32) (m ((c : Thread nD τ).loc main_arg4) : FVec Ideal S2048 .f32) (m ((c : Thread nD τ).loc main_arg5) : FVec Ideal S2048x1024 .f32) (m ((c : Thread nD τ).loc main_arg6) : FVec Ideal S1024 .f32)) :=
  (dats m 0 c).arrAt_eq_of_cover 9 (GruCell.G (m ((c : Thread nD τ).loc main_arg0) : FVec Ideal S16384x1024 .f32) (m ((c : Thread nD τ).loc main_arg1) : FVec Ideal S16384x1 .f32) (m ((c : Thread nD τ).loc main_arg2) : FVec Ideal S16384x1024 .f32) (m ((c : Thread nD τ).loc main_arg3) : FVec Ideal S2048x2048 .f32) (m ((c : Thread nD τ).loc main_arg4) : FVec Ideal S2048 .f32) (m ((c : Thread nD τ).loc main_arg5) : FVec Ideal S2048x1024 .f32) (m ((c : Thread nD τ).loc main_arg6) : FVec Ideal S1024 .f32)) (fun t _ => flushed_eq m c t) cover

/-- The kernel's run, read: the result array at the new state of the arguments, the arguments unchanged. -/
theorem run : θ_run defs (onTc (τ := τ) (main (F := Ideal))) ⟨m, fun _ => 0, ρ⟩ fun r => ∀ c : Dev nD,
      r.2.mem ((c : Thread nD τ).loc main_v10) = (GruCell.G (m ((c : Thread nD τ).loc main_arg0) : FVec Ideal S16384x1024 .f32) (m ((c : Thread nD τ).loc main_arg1) : FVec Ideal S16384x1 .f32) (m ((c : Thread nD τ).loc main_arg2) : FVec Ideal S16384x1024 .f32) (m ((c : Thread nD τ).loc main_arg3) : FVec Ideal S2048x2048 .f32) (m ((c : Thread nD τ).loc main_arg4) : FVec Ideal S2048 .f32) (m ((c : Thread nD τ).loc main_arg5) : FVec Ideal S2048x1024 .f32) (m ((c : Thread nD τ).loc main_arg6) : FVec Ideal S1024 .f32))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Value.run_blocks m ρ)

end Cert.KernelIdeal.Arr

end
-- ==== Proof.RefCell.lean ====
/-
  The reference, entry by entry, is the cell's row function.

  The reference concatenates the input and the state along the columns into a 16384 × 2048 array and multiplies it by
  the whole gate matrix; its entry (r, n) is a sum over 2048 positions c of cat(r, c) · W(c, n). Position c of the
  concatenated row is the input's entry c when c < 1024 and the state's entry c − 1024 otherwise, so the sum taken half
  by half is Σ_k x(r,k) · W(k, n) + Σ_k h(r,k) · W(1024 + k, n): the two half products. The same holds for the
  candidate, whose concatenated row is the input next to the reset-gated state. The logistic function is spelt out in
  the reference as 1 / (1 + e^(−z)), which is its definition on the extended reals; the constant 1.0 is the extended
  real one. The biases are broadcast along the rows, the attention score along the columns, and the reset and update
  gates are the column ranges 0 … 1023 and 1024 … 2047 of the gates.
-/
import proofs.«139915_j13134009991515_2_alg».proof.Proof.RefReadPatched
import proofs.«139915_j13134009991515_2_alg».proof.Proof.GruCell
import Idealize.ShloMosaic.Lib.IdealHost

noncomputable section

namespace Cert.ReferenceIdeal.Cell

open Cert.ReferenceIdeal Cert.ReferenceIdeal.Gen Cert.ReferenceIdeal.ReadP Idealize.ShloMosaic Idealize.ShloMosaic.ValueIdx

/-- A position in the first half of the joined axis reads the first piece. -/
theorem cat_lo (a b : (⟨S16384x1024, .f32⟩ : BufTy).Contents (Elt Ideal)) (r : Fin 16384) (k : Fin 1024) :
    concatenate S16384x2048 1 [⟨S16384x1024, a⟩, ⟨S16384x1024, b⟩] concatenates_S16384x1024_S16384x1024_S16384x2048_d1
      (ix2 r (GruCell.lo k)) = a (ix2 r k) :=
  concatenate_pair_apply_left 1 a b _ (ix2 r (GruCell.lo k)) rfl (ix2 r k) (fun bb => by
    match bb with
    | ⟨0, _⟩ => rfl
    | ⟨1, _⟩ => exact (Nat.zero_add _).symm)

/-- A position in the second half reads the second piece, 1024 positions earlier. -/
theorem cat_hi (a b : (⟨S16384x1024, .f32⟩ : BufTy).Contents (Elt Ideal)) (r : Fin 16384) (k : Fin 1024) :
    concatenate S16384x2048 1 [⟨S16384x1024, a⟩, ⟨S16384x1024, b⟩] concatenates_S16384x1024_S16384x1024_S16384x2048_d1
      (ix2 r (GruCell.hi k)) = b (ix2 r k) :=
  concatenate_pair_apply_right 1 a b _ (ix2 r (GruCell.hi k)) rfl rfl (ix2 r k) (fun bb => by
    match bb with
    | ⟨0, _⟩ => exact fun _ => rfl
    | ⟨1, _⟩ => exact fun hne => absurd rfl hne) (by show k.val + 1024 = 1024 + k.val; omega)

/-- The product of the concatenated row with the gate matrix, half by half. -/
theorem dot_gate_at (x0 x2 : (⟨S16384x1024, .f32⟩ : BufTy).Contents (Elt Ideal)) (x3 : (⟨S2048x2048, .f32⟩ : BufTy).Contents (Elt Ideal))
    (r : Fin 16384) (n : Fin 2048) :
    val_main_v1 (F := Ideal) x0 x2 x3 (ix2 r n)
      = (∑ k : Fin 1024, x0 (ix2 r k) * x3 (ix2 (GruCell.lo k) n)) + ∑ k : Fin 1024, x2 (ix2 r k) * x3 (ix2 (GruCell.hi k) n) := by
  have il : ∀ c : Fin 2048, lidx_main_v1 (ix2 r n) c = ix2 r c := fun c =>
    funext fun a => Fin.ext (by match a with | ⟨0, _⟩ => rfl | ⟨1, _⟩ => rfl)
  have ir : ∀ c : Fin 2048, ridx_main_v1 (ix2 r n) c = ix2 c n := fun c =>
    funext fun a => Fin.ext (by match a with | ⟨0, _⟩ => rfl | ⟨1, _⟩ => rfl)
  rw [val_main_v1_apply]
  simp only [il, ir]
  rw [GruCell.sum_halves]
  refine congrArg₂ (· + ·) (Finset.sum_congr rfl fun k _ => ?_) (Finset.sum_congr rfl fun k _ => ?_)
  · exact congrArg (· * x3 (ix2 (GruCell.lo k) n)) (cat_lo x0 x2 r k)
  · exact congrArg (· * x3 (ix2 (GruCell.hi k) n)) (cat_hi x0 x2 r k)

/-- The gate bias, broadcast along the rows. -/
theorem bias_gate_at (x4 : (⟨S2048, .f32⟩ : BufTy).Contents (Elt Ideal)) (r : Fin 16384) (n : Fin 2048) :
    val_main_v3 (F := Ideal) x4 (ix2 r n) = x4 (ix1 n) := by
  rw [val_main_v3_apply, val_main_v2_apply]
  exact congrArg x4 (funext fun a => Fin.ext (by match a with | ⟨0, _⟩ => rfl))

/-- The f32 pattern of 1.0 is the extended real one. -/
theorem one_const : FloatOps.ofBits (F := Ideal) .f32 0x3F800000#32 = (1 : EReal) := Ideal.ofBits_one_f32

/-- The gates of row `r` at column `n`. -/
theorem gates_at (x0 x2 : (⟨S16384x1024, .f32⟩ : BufTy).Contents (Elt Ideal)) (x3 : (⟨S2048x2048, .f32⟩ : BufTy).Contents (Elt Ideal))
    (x4 : (⟨S2048, .f32⟩ : BufTy).Contents (Elt Ideal)) (r : Fin 16384) (n : Fin 2048) :
    val_main_v10 (F := Ideal) x0 x2 x3 x4 (ix2 r n)
      = GruCell.gate (fun k => x0 (ix2 r k)) (fun k => x2 (ix2 r k)) (fun k n => x3 (ix2 (GruCell.lo k) n))
          (fun k n => x3 (ix2 (GruCell.hi k) n)) (fun n => x4 (ix1 n)) n := by
  rw [val_main_v10_apply, val_main_v9_apply, val_main_cst_0_apply, val_main_v8_apply, val_main_v7_apply, val_main_cst_apply,
    val_main_v6_apply, val_main_v5_apply, val_main_v4_apply, dot_gate_at, bias_gate_at, one_const]
  rfl

/-- The product of the concatenated row (input, reset-gated state) with the candidate matrix, half by half. -/
theorem dot_cand_at (x0 x2 : (⟨S16384x1024, .f32⟩ : BufTy).Contents (Elt Ideal)) (x3 : (⟨S2048x2048, .f32⟩ : BufTy).Contents (Elt Ideal))
    (x4 : (⟨S2048, .f32⟩ : BufTy).Contents (Elt Ideal)) (x5 : (⟨S2048x1024, .f32⟩ : BufTy).Contents (Elt Ideal))
    (r : Fin 16384) (q : Fin 1024) :
    val_main_v15 (F := Ideal) x0 x2 x3 x4 x5 (ix2 r q)
      = (∑ k : Fin 1024, x0 (ix2 r k) * x5 (ix2 (GruCell.lo k) q))
        + ∑ k : Fin 1024, (val_main_v10 (F := Ideal) x0 x2 x3 x4 (ix2 r (GruCell.lo k)) * x2 (ix2 r k)) * x5 (ix2 (GruCell.hi k) q) := by
  have il : ∀ c : Fin 2048, lidx_main_v15 (ix2 r q) c = ix2 r c := fun c =>
    funext fun a => Fin.ext (by match a with | ⟨0, _⟩ => rfl | ⟨1, _⟩ => rfl)
  have ir : ∀ c : Fin 2048, ridx_main_v15 (ix2 r q) c = ix2 c q := fun c =>
    funext fun a => Fin.ext (by match a with | ⟨0, _⟩ => rfl | ⟨1, _⟩ => rfl)
  have i11 : ∀ k : Fin 1024, idx_main_v11 (ix2 r k) = ix2 r (GruCell.lo k) := fun k =>
    funext fun a => Fin.ext (by match a with | ⟨0, _⟩ => rfl | ⟨1, _⟩ => exact (Nat.zero_add _).symm)
  rw [val_main_v15_apply]
  simp only [il, ir]
  rw [GruCell.sum_halves]
  refine congrArg₂ (· + ·) (Finset.sum_congr rfl fun k _ => ?_) (Finset.sum_congr rfl fun k _ => ?_)
  · exact congrArg (· * x5 (ix2 (GruCell.lo k) q)) (cat_lo x0 _ r k)
  · refine congrArg (· * x5 (ix2 (GruCell.hi k) q)) ((cat_hi x0 _ r k).trans ?_)
    rw [val_main_v13_apply, val_main_v11_apply, i11]
    rfl

/-- The candidate bias, broadcast along the rows. -/
theorem bias_cand_at (x6 : (⟨S1024, .f32⟩ : BufTy).Contents (Elt Ideal)) (r : Fin 16384) (q : Fin 1024) :
    val_main_v17 (F := Ideal) x6 (ix2 r q) = x6 (ix1 q) := by
  rw [val_main_v17_apply, val_main_v16_apply]
  exact congrArg x6 (funext fun a => Fin.ext (by match a with | ⟨0, _⟩ => rfl))

/-- The candidate of row `r` at column `q`. -/
theorem cand_at (x0 x2 : (⟨S16384x1024, .f32⟩ : BufTy).Contents (Elt Ideal)) (x3 : (⟨S2048x2048, .f32⟩ : BufTy).Contents (Elt Ideal))
    (x4 : (⟨S2048, .f32⟩ : BufTy).Contents (Elt Ideal)) (x5 : (⟨S2048x1024, .f32⟩ : BufTy).Contents (Elt Ideal))
    (x6 : (⟨S1024, .f32⟩ : BufTy).Contents (Elt Ideal)) (r : Fin 16384) (q : Fin 1024) :
    val_main_v19 (F := Ideal) x0 x2 x3 x4 x5 x6 (ix2 r q)
      = GruCell.cand (fun k => x0 (ix2 r k))
          (fun k => val_main_v10 (F := Ideal) x0 x2 x3 x4 (ix2 r (GruCell.lo k)) * x2 (ix2 r k))
          (fun k q => x5 (ix2 (GruCell.lo k) q)) (fun k q => x5 (ix2 (GruCell.hi k) q)) (fun q => x6 (ix1 q)) q := by
  rw [val_main_v19_apply, val_main_v18_apply, dot_cand_at, bias_cand_at]
  rfl

/-- Entry (r, q) of the reference's result is the cell's row function of row `r` of the arguments, at column `q`. -/
theorem result_at (x0 : (⟨S16384x1024, .f32⟩ : BufTy).Contents (Elt Ideal)) (x1 : (⟨S16384x1, .f32⟩ : BufTy).Contents (Elt Ideal))
    (x2 : (⟨S16384x1024, .f32⟩ : BufTy).Contents (Elt Ideal)) (x3 : (⟨S2048x2048, .f32⟩ : BufTy).Contents (Elt Ideal))
    (x4 : (⟨S2048, .f32⟩ : BufTy).Contents (Elt Ideal)) (x5 : (⟨S2048x1024, .f32⟩ : BufTy).Contents (Elt Ideal))
    (x6 : (⟨S1024, .f32⟩ : BufTy).Contents (Elt Ideal)) (r : Fin 16384) (q : Fin 1024) :
    val_main_v28 (F := Ideal) x0 x1 x2 x3 x4 x5 x6 (ix2 r q)
      = GruCell.out (fun k => x0 (ix2 r k)) (fun k => x2 (ix2 r k)) (x1 (ix2 r (0 : Fin 1)))
          (fun k n => x3 (ix2 (GruCell.lo k) n)) (fun k n => x3 (ix2 (GruCell.hi k) n)) (fun n => x4 (ix1 n))
          (fun k q => x5 (ix2 (GruCell.lo k) q)) (fun k q => x5 (ix2 (GruCell.hi k) q)) (fun q => x6 (ix1 q)) q := by
  have i22 : idx_main_v22 (ix2 r q) = ix2 r (0 : Fin 1) :=
    funext fun a => Fin.ext (by match a with | ⟨0, _⟩ => rfl | ⟨1, _⟩ => rfl)
  have i12 : idx_main_v12 (ix2 r q) = ix2 r (GruCell.hi q) :=
    funext fun a => Fin.ext (by match a with | ⟨0, _⟩ => rfl | ⟨1, _⟩ => rfl)
  rw [val_main_v28_apply, val_main_v24_apply, val_main_v27_apply, val_main_v26_apply, val_main_v25_apply, val_main_cst_2_apply,
    val_main_v23_apply, val_main_v22_apply, val_main_v21_apply, val_main_v20_apply, val_main_cst_1_apply, val_main_v12_apply,
    i22, i12, cand_at, one_const]
  simp only [gates_at]
  rfl

end Cert.ReferenceIdeal.Cell

end
-- ==== Proof.lean ====
/-
  The kernel and its reference compute the same attention-gated recurrent cell.

  For 16384 batch rows with 1024 input entries and 1024 state entries each, the new state of a row is

    gate   = σ ([x, h] · W_gate + b_gate)                 (2048 columns: the reset gate r, then the update gate u)
    c      = tanh ([x, r · h] · W_cand + b_cand)
    u'     = (1 − att) · u
    new h  = u' · h + (1 − u') · c,

  where [·, ·] joins two rows of 1024 entries into one of 2048. The reference forms the joined rows and multiplies
  them by the whole 2048-row matrices. The kernel works on 512 rows at a grid point and never joins anything: the host
  cuts each matrix into its first and last 1024 rows beforehand, and the kernel adds the product of x with the first
  half to the product of h (or r · h) with the second half. Read on the extended reals the two agree entry by entry:
  a sum over the 2048 joined positions is the sum over the first 1024 plus the sum over the last 1024, which needs only
  that addition is commutative and associative (Proof/GruCell.lean, `sum_halves`); the logistic function, which the
  reference spells 1 / (1 + e^(−z)), is that expression by definition; a change of float format is the identity and a
  matrix product accumulated from zero is the plain sum of products. No step needs the inputs to be finite, so the
  precondition is never opened.

  The modules: Proof/GruCell.lean and Proof/GruArray.lean state the cell on one row and as one function `G` of the
  seven argument arrays; Proof/KernelCell.lean reads the kernel's stored block entry by entry and
  Proof/KernelArray.lean puts the 32 blocks together into the result array; Proof/RefCell.lean reads the reference
  entry by entry. The ideal pass rewrote nothing in this kernel, so the idealization claim is the trivial one.
-/
import proofs.«139915_j13134009991515_2_alg».proof.Defs
import proofs.«139915_j13134009991515_2_alg».proof.Proof.Gen.Kernel
import proofs.«139915_j13134009991515_2_alg».proof.Proof.Gen.Kernel.Frame
import proofs.«139915_j13134009991515_2_alg».proof.Proof.Gen.KernelIdeal
import proofs.«139915_j13134009991515_2_alg».proof.Proof.Gen.KernelIdeal.Frame
import proofs.«139915_j13134009991515_2_alg».proof.Proof.Gen.ReferenceIdeal
import proofs.«139915_j13134009991515_2_alg».proof.Proof.Gen.Pre_finite_inputs
import proofs.«139915_j13134009991515_2_alg».proof.Proof.KernelArray
import proofs.«139915_j13134009991515_2_alg».proof.Proof.RefCell
import Idealize.ShloMosaic.Adequacy
import Idealize.ShloMosaic.Init

noncomputable section

namespace Cert.Proof

open Idealize.ShloMosaic Idealize.ShloMosaic.TcCoe Idealize.SL.Sem Idealize.ShloMosaic.ValueIdx

/-- The kernel as printed runs to the end and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference: its run with the result dropped. -/
theorem frame_referenceIdeal : Cert.frame_ReferenceIdeal := fun m ρ _ =>
  (θ_run Cert.ReferenceIdeal.defs _ _).mono (fun _ h c => (h c).2) (Cert.ReferenceIdeal.RunP.run (F := Ideal) m ρ)

/-- From arguments that agree, both programs end with the result array at the new state `G` of the arguments: the
    kernel's 32 blocks put together, and the reference's composed term read at each entry. -/
theorem algebraic : Cert.algebraic_KernelIdeal_ReferenceIdeal := by
  intro m ρ m' ρ' _ hagree
  refine ⟨fun c => GruCell.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    Cert.KernelIdeal.Arr.run m ρ, ?_⟩
  refine (θ_run Cert.ReferenceIdeal.defs _ _).mono (fun _ h c => ⟨(h c).1.trans ?_, (h c).2⟩)
    (Cert.ReferenceIdeal.RunP.run (F := Ideal) m' ρ')
  obtain ⟨a0, a1, a2, a3, a4, a5, a6⟩ := hagree c
  rw [a0, a1, a2, a3, a4, a5, a6, Cert.ReferenceIdeal.ReadP.val_main_v28_eq]
  funext j
  obtain ⟨r, q, rfl⟩ : ∃ (r : Fin 16384) (q : Fin 1024), j = ix2 r q := ⟨j 0, j 1, eq_ix2 j⟩
  exact Cert.ReferenceIdeal.Cell.result_at _ _ _ _ _ _ _ r q

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
